-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x4096 : Shape := ⟨3, ![8, 64, 4096]⟩
abbrev S16384x4096 : Shape := ⟨2, ![16384, 4096]⟩
abbrev S16384 : Shape := ⟨1, ![16384]⟩
abbrev S_ : Shape := ⟨0, ![]⟩

class Facts : Prop where
  bcast_S_S8x64x4096 : S_.BroadcastsInDim S8x64x4096 (![] : Fin 0 → Fin S8x64x4096.rank)
  reducesTo_S8x64x4096_S_d0_1_2 : S8x64x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8x64x4096 .f32) (main_arg1 : IVec S16384x4096 32) (main_arg2 : FVec F S16384 .f32) (main_arg3 : FVec F S16384 .f32) : IVec S_ 1 :=
  let main_v0 : FVec F S8x64x4096 .f32 := Host.absf main_arg0
  let main_cst : FVec F S_ .f32 := constant S_ .f32 0x7F800000#32
  let main_v1 : FVec F S8x64x4096 .f32 := broadcastInDim S8x64x4096 ![] bcast_S_S8x64x4096 main_cst
  let main_v2 : IVec S8x64x4096 1 := cmpf .olt main_v0 main_v1
  let main_c : IVec S_ 1 := constantI S_ 1 1#1
  let main_v3 : IVec S_ 1 := (fun x v => Host.reduce IntOp.andi x v reducesTo_S8x64x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8x64x4096 : Shape := ⟨3, ![8, 64, 4096]⟩
abbrev S16384x4096 : Shape := ⟨2, ![16384, 4096]⟩
abbrev S16384 : Shape := ⟨1, ![16384]⟩
abbrev S512x4096 : Shape := ⟨2, ![512, 4096]⟩
abbrev S1x16384 : Shape := ⟨2, ![1, 16384]⟩
abbrev S512x16384 : Shape := ⟨2, ![512, 16384]⟩
abbrev S1x512 : Shape := ⟨2, ![1, 512]⟩
abbrev S512x512 : Shape := ⟨2, ![512, 512]⟩
abbrev S8x64x16384 : Shape := ⟨3, ![8, 64, 16384]⟩

abbrev nBuf : Space → Nat
  | .hbm => 10
  | .vmem => 9
  | .smem => 0
  | _ => 0

abbrev bufTy : (tb : Table) → Fin (tcTables nBuf tb) → BufTy
  | .hbm, ⟨0, _⟩ => ⟨S8x64x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S512x4096, .f32⟩
  | .hbm, ⟨5, _⟩ => ⟨S512x4096, .bf16⟩
  | .hbm, ⟨6, _⟩ => ⟨S1x16384, .f32⟩
  | .hbm, ⟨7, _⟩ => ⟨S1x16384, .f32⟩
  | .hbm, ⟨8, _⟩ => ⟨S512x16384, .f32⟩
  | .hbm, ⟨9, _⟩ => ⟨S8x64x16384, .f32⟩
  | .local _ .vmem, ⟨0, _⟩ => ⟨S512x4096, .bf16⟩
  | .local _ .vmem, ⟨1, _⟩ => ⟨S512x4096, .i32⟩
  | .local _ .vmem, ⟨2, _⟩ => ⟨S512x4096, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | _, _ => ⟨S8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x64x4096_S512x4096 : S8x64x4096.ShapeCasts S512x4096
  bitsLt_bf16_f32 : FTy.bits .bf16 < FTy.bits .f32
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x16384_S8x64x16384 : S512x16384.ShapeCasts S8x64x16384
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .i32 = 32 ∨ (Rect.block (s := S16384x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x16384.size a
  hwx0_4 : ∀ i : grid0.Coords, EltTy.bits .f32 = 32 ∨ (Rect.block (s := S512x16384) S512x512.size (cc0_transform_4 i) (hinb0_4 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v1) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x4096 : Shape := ⟨3, ![8, 64, 4096]⟩
abbrev S16384x4096 : Shape := ⟨2, ![16384, 4096]⟩
abbrev S16384 : Shape := ⟨1, ![16384]⟩
abbrev S16384x1 : Shape := ⟨2, ![16384, 1]⟩
abbrev S8x64x16384 : Shape := ⟨3, ![8, 64, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S8x64x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S8x64x16384, .f32⟩
  | .hbm, ⟨9, _⟩ => ⟨S1x1x16384, .f32⟩
  | .hbm, ⟨10, _⟩ => ⟨S8x64x16384, .f32⟩
  | .hbm, ⟨11, _⟩ => ⟨S8x64x16384, .f32⟩
  | _, _ => ⟨S8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S8x64x16384_0_1_2 : S1x1x16384.BroadcastsInDim S8x64x16384 (![0, 1, 2] : Fin 3 → Fin S8x64x16384.rank)
  dot_S8x64x4096_S16384x4096_S8x64x16384_2_1_01_0_n_n_wf : DotDims.WF S8x64x4096 S16384x4096 S8x64x16384 [2] [1] [0, 1] [0] [] []

variable [Facts₀]

def dot_S8x64x4096_S16384x4096_S8x64x16384_2_1_01_0_n_n : DotDims S8x64x4096 S16384x4096 S8x64x16384 where
  lhsContracting := [2]
  rhsContracting := [1]
  lhsNonContracting := [0, 1]
  rhsNonContracting := [0]
  lhsBatch := []
  rhsBatch := []
  wf := dot_S8x64x4096_S16384x4096_S8x64x16384_2_1_01_0_n_n_wf

class Facts : Prop extends Facts₀ where

variable [Facts]
-- ==== Proof.LibMergeLeadingAxes.lean ====
/-
  Merging the two leading axes of a rank-3 array into one, and splitting them again, read at coordinates.

  In row-major order entry `(r, t, k)` of an `[a, b, c]` array sits at position `(r * b + t) * c + k`, which is
  where entry `(r * b + t, k)` of an `[n, c]` array sits. So a reshape of `[a, b, c]` to `[n, c]` reads, at row
  `p = r * b + t` and column `k`, the operand at `(r, t, k)`; and the reshape back reads, at `(r, t, k)`, the operand
  at row `p`, column `k`. Stated for any element type and any extents, with indices written by their coordinates;
  the merged extent `n` is a parameter so that a printed literal (`512` for `8 * 64`) unifies.
-/
import Idealize.ShloMosaic.Lib.Pipeline.Value
import Idealize.ShloMosaic.Lib.ValueIdx

namespace Idealize.ShloMosaic.MergeLeadingAxes

open Idealize.ShloMosaic Idealize.ShloMosaic.ValueIdx

variable {α : Type}

/-- An `[a, b, c]` array reshaped to `[n, c]` reads, at `(p, k)` with `p = r * b + t`, the operand at `(r, t, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin a) (t : Fin b) (k : Fin c) (p : Fin n)
    (hp : p.val = r.val * b + t.val) :
    shapeCast ⟨2, ![n, c]⟩ x h (ix2 p k) = x (ix3 r t k) :=
  shapeCast_apply x h _ _ (by
    rw [Shape.rowMajor_val_three, Shape.rowMajor_val_two]
    show (r.val * b + t.val) * c + k.val = p.val * c + k.val
    rw [hp])

/-- An `[n, c]` array reshaped to `[a, b, c]` reads, at `(r, t, k)`, the operand at `(p, k)` with `p = r * b + t`. -/
theorem shapeCast_nc_abc_apply {a b c n : ℕ} (x : (⟨2, ![n, c]⟩ : Shape).Idx → α)
    (h : (⟨2, ![n, c]⟩ : Shape).ShapeCasts ⟨3, ![a, b, c]⟩) (r : Fin a) (t : Fin b) (k : Fin c) (p : Fin n)
    (hp : p.val = r.val * b + t.val) :
    shapeCast ⟨3, ![a, b, c]⟩ x h (ix3 r t k) = x (ix2 p k) :=
  shapeCast_apply x h _ _ (by
    rw [Shape.rowMajor_val_three, Shape.rowMajor_val_two]
    show p.val * c + k.val = (r.val * b + t.val) * c + k.val
    rw [hp])

end Idealize.ShloMosaic.MergeLeadingAxes
-- ==== Proof.HostGlue.lean ====
/-
  What the region finds in its operands.

  Before the region the program flattens the activations `[8, 64, 4096]` to `[512, 4096]` (row `r * 64 + t` is batch
  entry `r`, position `t`) and narrows them to bf16 — no change at the ideal instance — and lays the scale and the
  bias vectors out as single rows `[1, 16384]`. The weights reach the region as launched. Each operand is read here
  at coordinates, in terms of the argument arrays.
-/
import proofs.«172685_j59751585022726_2_alg».proof.Proof.Gen.KernelIdeal.Frame
import proofs.«172685_j59751585022726_2_alg».proof.Proof.LibMergeLeadingAxes
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostGlue

open Cert.KernelIdeal Cert.KernelIdeal.Gen Idealize.ShloMosaic Idealize.ShloMosaic.TcCoe Idealize.SL.Sem
open Idealize.ShloMosaic.StableHlo Idealize.ShloMosaic.ValueIdx Idealize.ShloMosaic.MergeLeadingAxes

variable (m : (ℓ : Loc nD τ sig) → Buf (Elt Ideal) ℓ)

/-- The row of the flattened activations that holds batch entry `r`, position `t`. -/
def row (r : Fin 8) (t : Fin 64) : Fin 512 := ⟨r.val * 64 + t.val, by omega⟩

/-- The flattened, narrowed activations as the operations' term of the argument. -/
theorem V_main_v1 (c : Dev nD) :
    (V m c main_v1 : S512x4096.Idx → EReal)
      = truncf (F := Ideal) .bf16 (shapeCast S512x4096 (m ((c : Thread nD τ).loc main_arg0)) shapeCasts_S8x64x4096_S512x4096) bitsLt_bf16_f32 := by
  show StableHlo.after hostOps0 (fun b => m (c, b)) (Proc.devRef .tc main_v1) = _
  after_results
  rfl

/-- The scales as one row. -/
theorem V_main_v2 (c : Dev nD) :
    (V m c main_v2 : S1x16384.Idx → EReal) = shapeCast S1x16384 (m ((c : Thread nD τ).loc main_arg2)) shapeCasts_S16384_S1x16384 := by
  show StableHlo.after hostOps0 (fun b => m (c, b)) (Proc.devRef .tc main_v2) = _
  after_results
  rfl

/-- The biases as one row. -/
theorem V_main_v3 (c : Dev nD) :
    (V m c main_v3 : S1x16384.Idx → EReal) = shapeCast S1x16384 (m ((c : Thread nD τ).loc main_arg3)) shapeCasts_S16384_S1x16384 := by
  show StableHlo.after hostOps0 (fun b => m (c, b)) (Proc.devRef .tc main_v3) = _
  after_results
  rfl

/-- Row `r * 64 + t`, column `k` of the region's activation operand is the argument at `(r, t, k)`. -/
theorem activations_apply (c : Dev nD) (r : Fin 8) (t : Fin 64) (k : Fin 4096) :
    (V m c main_v1 : S512x4096.Idx → EReal) (ix2 (row r t) k) = m ((c : Thread nD τ).loc main_arg0) (ix3 r t k) := by
  rw [V_main_v1, truncf_apply]
  exact shapeCast_abc_nc_apply _ shapeCasts_S8x64x4096_S512x4096 r t k (row r t) rfl

/-- Column `o` of the region's one-row scale operand is the argument at `o`. -/
theorem scales_apply (c : Dev nD) (o : Fin 16384) :
    (V m c main_v2 : S1x16384.Idx → EReal) (ix2 (0 : Fin 1) o) = m ((c : Thread nD τ).loc main_arg2) (ix1 o) := by
  rw [V_main_v2]
  exact shapeCast_a_1a_apply _ shapeCasts_S16384_S1x16384 0 o

/-- Column `o` of the region's one-row bias operand is the argument at `o`. -/
theorem biases_apply (c : Dev nD) (o : Fin 16384) :
    (V m c main_v3 : S1x16384.Idx → EReal) (ix2 (0 : Fin 1) o) = m ((c : Thread nD τ).loc main_arg3) (ix1 o) := by
  rw [V_main_v3]
  exact shapeCast_a_1a_apply _ shapeCasts_S16384_S1x16384 0 o

end Cert.KernelIdeal.HostGlue

end
-- ==== Proof.BodyValue.lean ====
/-
  What the kernel body stores, entry by entry, at the ideal instance.

  The body loads the whole activation matrix `x` (512 rows of 4096), one tile `w` of 512 quantized weight rows
  (integers), and that tile's 512 scales `s` and biases `b` (each a single row), and stores the 512 × 512 tile
  `(x · wᵀ) * s + b`. Read at row `p`, column `q` this is
  `(∑ k, x[p, k] * w[q, k]) * s[0, q] + b[0, q]`: the matrix unit's contraction over both operands' second axis
  into a zero accumulator is the plain sum, the integer-to-float conversion of a weight is the integer itself
  as a real, the shape casts are identities and a one-row matrix broadcast down the rows is that row.
-/
import proofs.«172685_j59751585022726_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx
open scoped BigOperators

/-! ## The contraction's index maps, coordinate by coordinate -/

theorem lhs_row (j : S512x512.Idx) (q : dot_S512x4096_S512x4096_S512x512_1_1_0_0_n_n.contr.Idx) :
    (dot_S512x4096_S512x4096_S512x512_1_1_0_0_n_n.lhsIdx j q 0).val = (j 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl
theorem lhs_contr (j : S512x512.Idx) (q : dot_S512x4096_S512x4096_S512x512_1_1_0_0_n_n.contr.Idx) :
    (dot_S512x4096_S512x4096_S512x512_1_1_0_0_n_n.lhsIdx j q 1).val = (q ⟨0, by decide⟩).val :=
  dot_S512x4096_S512x4096_S512x512_1_1_0_0_n_n.lhsIdx_val_of_single rfl j q
theorem rhs_row (j : S512x512.Idx) (q : dot_S512x4096_S512x4096_S512x512_1_1_0_0_n_n.contr.Idx) :
    (dot_S512x4096_S512x4096_S512x512_1_1_0_0_n_n.rhsIdx j q 0).val = (j 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl
theorem rhs_contr (j : S512x512.Idx) (q : dot_S512x4096_S512x4096_S512x512_1_1_0_0_n_n.contr.Idx) :
    (dot_S512x4096_S512x4096_S512x512_1_1_0_0_n_n.rhsIdx j q 1).val = (q ⟨0, by decide⟩).val :=
  dot_S512x4096_S512x4096_S512x512_1_1_0_0_n_n.rhsIdx_val_of_single rfl j q

/-! ## The three non-pointwise operations, read at row `p`, column `q` -/

/-- The contraction into the zero accumulator: entry `(p, q)` is row `p` of the left operand against row `q`
    of the right one. -/
theorem contraction_apply (l r : FVec Ideal S512x4096 .bf16) (p q : Fin 512) :
    matmul dot_S512x4096_S512x4096_S512x512_1_1_0_0_n_n none l r (constant (F := Ideal) S512x512 .f32 0x00000000#32) (ix2 p q)
      = ∑ k : Fin 4096, l (ix2 p k) * r (ix2 q k) := by
  refine (Ideal.matmul_constant_zero_apply dot_S512x4096_S512x4096_S512x512_1_1_0_0_n_n none l r (ix2 p q)).trans ?_
  rw [← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q)
      ((contrEquiv1 dot_S512x4096_S512x4096_S512x512_1_1_0_0_n_n 4096 rfl rfl).symm k) = ix2 p k :=
    funext fun a => Fin.ext (by
      match a with
      | ⟨0, _⟩ => exact lhs_row _ _
      | ⟨1, _⟩ => exact (lhs_contr _ _).trans hk)
  have er : dot_S512x4096_S512x4096_S512x512_1_1_0_0_n_n.rhsIdx (ix2 p q)
      ((contrEquiv1 dot_S512x4096_S512x4096_S512x512_1_1_0_0_n_n 4096 rfl rfl).symm k) = ix2 q k :=
    funext fun a => Fin.ext (by
      match a with
      | ⟨0, _⟩ => exact rhs_row _ _
      | ⟨1, _⟩ => exact (rhs_contr _ _).trans hk)
  rw [el, er]

/-- A loaded one-row block, cast to its own shape and broadcast down 512 rows, reads its entry in column `q`. -/
theorem row_bcast_apply (v : FVec Ideal S1x512 .f32) (p q : Fin 512) :
    broadcastTo S512x512 (shapeCast S1x512 v shapeCasts_S1x512_S1x512) broadcasts_S1x512_S512x512 (ix2 p q)
      = v (ix2 (0 : Fin 1) q) := by
  rw [shapeCast_self]
  exact broadcastTo_1b_ab_apply v broadcasts_S1x512_S512x512 p q

/-! ## The stored tile -/

/-- Entry `(p, q)` of the tile the body stores: the dot product of activation row `p` with the integer weight
    row `q`, times that row's scale, plus its bias. -/
theorem tile_apply (x : FVec Ideal S512x4096 .bf16) (w : IVec S512x4096 32) (s b : FVec Ideal S1x512 .f32)
    (p q : Fin 512) :
    k0_pay1 (F := Ideal) x w s b (ix2 p q)
      = (∑ k : Fin 4096, x (ix2 p k) * (((w (ix2 q k)).toInt : ℝ) : EReal)) * s (ix2 (0 : Fin 1) q)
        + b (ix2 (0 : Fin 1) q) := by
  unfold k0_pay1
  rw [addf_apply, mulf_apply, row_bcast_apply, row_bcast_apply, shapeCast_self, contraction_apply]
  rfl

end Cert.KernelIdeal.BodyValue

end
-- ==== Proof.TileValue.lean ====
/-
  From the tiles to the region's whole result.

  The grid has 32 points. Point `t` is called with the whole activation matrix, weight rows `512 t … 512 t + 511`
  and the same 512 columns of the one-row scale and bias operands, and writes back columns `512 t … 512 t + 511`
  of the `[512, 16384]` result. Entry `(p, q)` of the tile stored at point `t` is therefore entry `(p, 512 t + q)` of
  one function of the operands,

    product[p, o] = (∑ k, a[p, k] * w[o, k]) * s[0, o] + b[0, o],

  and since every column lies in exactly one point's range the region's result array is that function.
-/
import proofs.«172685_j59751585022726_2_alg».proof.Proof.Gen.KernelIdeal.Frame
import proofs.«172685_j59751585022726_2_alg».proof.Proof.BodyValue
import Idealize.ShloMosaic.Lib.ValueIdx
import Idealize.ShloMosaic.Lib.Pipeline.Value

set_option maxRecDepth 16384

noncomputable section

open scoped BigOperators

namespace Cert.KernelIdeal.TileValue

open Cert.KernelIdeal Cert.KernelIdeal.Gen Cert.KernelIdeal.BodyValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The region's result as one function of its operands -/

/-- Entry `(p, o)` of the region's result: activation row `p` against integer weight row `o`, scaled by the row's
    scale, plus its bias. -/
def entry (a : S512x4096.Idx → EReal) (w : S16384x4096.Idx → BitVec 32) (s b : S1x16384.Idx → EReal)
    (p : Fin 512) (o : Fin 16384) : EReal :=
  (∑ k : Fin 4096, a (ix2 p k) * (((w (ix2 o k)).toInt : ℝ) : EReal)) * s (ix2 (0 : Fin 1) o) + b (ix2 (0 : Fin 1) o)

/-- The whole `[512, 16384]` result. -/
def product (a : S512x4096.Idx → EReal) (w : S16384x4096.Idx → BitVec 32) (s b : S1x16384.Idx → EReal) :
    S512x16384.Idx → EReal :=
  fun i => entry a w s b (i 0) (i 1)

theorem product_ix2 (a : S512x4096.Idx → EReal) (w : S16384x4096.Idx → BitVec 32) (s b : S1x16384.Idx → EReal)
    (p : Fin 512) (o : Fin 16384) : product a w s b (ix2 p o) = entry a w s b p o := rfl

/-! ## Where each window's block sits at a point -/

theorem offsets_zero : (![0, 0] : Fin 2 → Nat) = fun _ => 0 := funext fun a => by fin_cases a <;> rfl

/-- The printed index maps over the grid: the activations' block never moves; the weights' block index is the point
    on the row axis; the scales', the biases' and the result's is the point on the column axis. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem point_lt (t : Fin cfg0.N) : t.val < 32 := t.isLt.trans_eq N_0

/-- Column `q` of point `t`'s tile is column `512 t + q` of the array. -/
def col (t : Fin cfg0.N) (q : Fin 512) : Fin 16384 := ⟨t.val * 512 + q.val, by have := point_lt t; omega⟩

theorem emb_activations (t : Fin cfg0.N) (p : Fin 512) (k : Fin 4096) :
    ((cfg0.win 0).blk t).view.emb (ix2 p k) = ix2 p k := by
  obtain ⟨e0, e1, -⟩ := block_indices t
  funext a; apply Fin.ext
  match a with
  | ⟨0, _⟩ => show win0_0.index t (0 : Fin 2) * 512 + 1 * p.val = p.val; omega
  | ⟨1, _⟩ => show win0_0.index t (1 : Fin 2) * 4096 + 1 * k.val = k.val; omega

theorem emb_weights (t : Fin cfg0.N) (q : Fin 512) (k : Fin 4096) :
    ((cfg0.win 1).blk t).view.emb (ix2 q k) = ix2 (col t q) k := by
  obtain ⟨-, -, e0, e1, -⟩ := block_indices t
  funext a; apply Fin.ext
  match a with
  | ⟨0, _⟩ => show win0_1.index t (0 : Fin 2) * 512 + 1 * q.val = t.val * 512 + q.val; omega
  | ⟨1, _⟩ => show win0_1.index t (1 : Fin 2) * 4096 + 1 * k.val = k.val; omega

theorem emb_scales (t : Fin cfg0.N) (q : Fin 512) :
    ((cfg0.win 2).blk t).view.emb (ix2 (0 : Fin 1) q) = ix2 (0 : Fin 1) (col t q) := by
  obtain ⟨-, -, -, -, e0, e1, -⟩ := block_indices t
  funext a; apply Fin.ext
  match a with
  | ⟨0, _⟩ => show win0_2.index t (0 : Fin 2) * 1 + 1 * 0 = 0; omega
  | ⟨1, _⟩ => show win0_2.index t (1 : Fin 2) * 512 + 1 * q.val = t.val * 512 + q.val; omega

theorem emb_biases (t : Fin cfg0.N) (q : Fin 512) :
    ((cfg0.win 3).blk t).view.emb (ix2 (0 : Fin 1) q) = ix2 (0 : Fin 1) (col t q) := by
  obtain ⟨-, -, -, -, -, -, e0, e1, -⟩ := block_indices t
  funext a; apply Fin.ext
  match a with
  | ⟨0, _⟩ => show win0_3.index t (0 : Fin 2) * 1 + 1 * 0 = 0; omega
  | ⟨1, _⟩ => show win0_3.index t (1 : Fin 2) * 512 + 1 * q.val = t.val * 512 + q.val; omega

theorem emb_result (t : Fin cfg0.N) (p q : Fin 512) :
    ((cfg0.win 4).blk t).view.emb (ix2 p q) = ix2 p (col t q) := by
  obtain ⟨-, -, -, -, -, -, -, -, e0, e1⟩ := block_indices t
  funext a; apply Fin.ext
  match a with
  | ⟨0, _⟩ => show win0_4.index t (0 : Fin 2) * 512 + 1 * p.val = p.val; omega
  | ⟨1, _⟩ => show win0_4.index t (1 : Fin 2) * 512 + 1 * q.val = t.val * 512 + q.val; omega

/-! ## The input blocks at a point, read off the operands -/

theorem read_activations (c : Dev nD) (t : Fin cfg0.N) (p : Fin 512) (k : Fin 4096) :
    iblk m c 0 t (ix2 p k) = V m c main_v1 (ix2 p k) := by
  show V m c main_v1 (((cfg0.win 0).blk t).view.emb (ix2 p k)) = _
  rw [emb_activations]

theorem read_weights (c : Dev nD) (t : Fin cfg0.N) (q : Fin 512) (k : Fin 4096) :
    iblk m c 1 t (ix2 q k) = V m c main_arg1 (ix2 (col t q) k) := by
  show V m c main_arg1 (((cfg0.win 1).blk t).view.emb (ix2 q k)) = _
  rw [emb_weights]

theorem read_scales (c : Dev nD) (t : Fin cfg0.N) (q : Fin 512) :
    iblk m c 2 t (ix2 (0 : Fin 1) q) = V m c main_v2 (ix2 (0 : Fin 1) (col t q)) := by
  show V m c main_v2 (((cfg0.win 2).blk t).view.emb (ix2 (0 : Fin 1) q)) = _
  rw [emb_scales]

theorem read_biases (c : Dev nD) (t : Fin cfg0.N) (q : Fin 512) :
    iblk m c 3 t (ix2 (0 : Fin 1) q) = V m c main_v3 (ix2 (0 : Fin 1) (col t q)) := by
  show V m c main_v3 (((cfg0.win 3).blk t).view.emb (ix2 (0 : Fin 1) q)) = _
  rw [emb_biases]

/-! ## What a point writes back -/

/-- The tile point `t` writes back is block `t` of `product` of the operands as the region finds them. -/
theorem flushed_eq (c : Dev nD) (t : Fin cfg0.N) :
    (dats m 0 c).flushed 4 t = ((cfg0.win 4).blk t).view.read (Elt Ideal)
      (product (V m c main_v1) (V m c main_arg1) (V m c main_v2) (V m c main_v3)) := by
  show (cfg0.win 4).cut (grid0.coords t) ((dats m 0 c).after 4 t) = _
  rw [after0_4]
  unfold out0_4
  rw [View.canon_unit_zero offsets_zero]
  simp only [View.ld_unit_zero (S := S512x4096) offsets_zero, View.ld_unit_zero (S := S1x512) offsets_zero]
  funext j
  obtain ⟨p, q, rfl⟩ : ∃ (p q : Fin 512), j = ix2 p q := ⟨j 0, j 1, eq_ix2 (n0 := 512) (n1 := 512) j⟩
  show k0_pay1 (F := Ideal) (iblk m c 0 t) (iblk m c 1 t) (iblk m c 2 t) (iblk m c 3 t) (ix2 p q)
    = product (V m c main_v1) (V m c main_arg1) (V m c main_v2) (V m c main_v3) (((cfg0.win 4).blk t).view.emb (ix2 p q))
  rw [emb_result, product_ix2]
  refine (tile_apply (iblk m c 0 t) (iblk m c 1 t) (iblk m c 2 t) (iblk m c 3 t) p q).trans ?_
  unfold entry
  simp only [read_activations, read_weights, read_scales, read_biases]

/-! ## The cover, and the array after the run -/

/-- An index of the result array is in point `t`'s block iff each coordinate is in the block's range on its axis. -/
theorem mem_blk (t : Fin cfg0.N) (i : S512x16384.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v4).slice (win0_4.rect t)).set ↔ _
  rw [View.set_slice_whole, Rect.mem_set_unit]
  exact Iff.rfl

/-- Every index of the result array is in the block of the point its column falls to. -/
theorem cover (i : S512x16384.Idx) :
    ∃ t : Fin cfg0.N, (cfg0.win 4).flush t = true ∧ i ∈ ((cfg0.win 4).blk t).view.set := by
  have hi0 : (i 0).val < 512 := (i 0).isLt
  have hi1 : (i 1).val < 16384 := (i 1).isLt
  have hN : cfg0.N = 32 := N_0
  let t : Fin cfg0.N := ⟨(i 1).val / 512, by rw [hN]; omega⟩
  have ht : t.val = (i 1).val / 512 := rfl
  obtain ⟨-, -, -, -, -, -, -, -, e0, e1⟩ := block_indices t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 512 ≤ (i 1).val ∧ (i 1).val < win0_4.index t (1 : Fin 2) * 512 + 512
    omega

/-- The region's result array after the run is `product` of the operands as the region finds them. -/
theorem final (c : Dev nD) :
    (dats m 0 c).arrAt 4 cfg0.N = product (V m c main_v1) (V m c main_arg1) (V m c main_v2) (V m c main_v3) :=
  (dats m 0 c).arrAt_eq_of_cover 4 _ (fun t _ => flushed_eq m c t) cover

end Cert.KernelIdeal.TileValue

end
-- ==== Proof.ScaleLaw.lean ====
/-
  Moving a row's scale through its contraction.

  The kernel scales the finished dot product of an activation row with a quantized weight row,
  `(∑ k, x k * w k) * s`; the reference scales every weight first, `∑ k, x k * (w k * s)`. Over the extended
  reals multiplication does not distribute over addition at the infinities (`(1 + -1) * ⊤ = 0` while
  `1 * ⊤ + -1 * ⊤ = ⊥`), so the two agree only where nothing is infinite: the weights are integers, hence
  real, and the activations and the scale are real by hypothesis. With every factor the image of a real number
  both sides are images of real sums, and there the identity is distributivity and associativity in `ℝ`.
-/
import Idealize.ShloMosaic.PureOps.Ideal

open scoped BigOperators

namespace Cert.Proof.ScaleLaw

/-- The inclusion of the reals in the extended reals commutes with finite sums. -/
theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A sum of products of real factors, scaled by a real factor, is the sum of the products with the scale
    moved onto the second factor. -/
theorem sum_mul_scale {ι : Type*} [Fintype ι] (x : ι → EReal) (w : ι → ℝ) (s : EReal)
    (hx : ∀ k, ∃ r : ℝ, x k = (r : EReal)) (hs : ∃ r : ℝ, s = (r : EReal)) :
    (∑ k, x k * (w k : EReal)) * s = ∑ k, x k * ((w k : EReal) * s) := by
  choose xr hxr using hx
  obtain ⟨sr, rfl⟩ := hs
  simp only [hxr, ← EReal.coe_mul, ← coe_sum]
  refine congrArg (fun r : ℝ => (r : EReal)) ?_
  rw [Finset.sum_mul]
  exact Finset.sum_congr rfl fun k _ => by ring

end Cert.Proof.ScaleLaw
-- ==== Proof.LinearSpec.lean ====
/-
  The dequantized linear layer as one function of its four arguments.

  For a batch entry `r`, a position `t` and an output feature `o`, with `x` the activations [8, 64, 4096],
  `w` the integer weights [16384, 4096], `s` the per-row scales and `b` the biases [16384]:

    scaled after the contraction   (∑ k, x[r, t, k] * w[o, k]) * s[o] + b[o]
    scaled before the contraction   ∑ k, x[r, t, k] * (w[o, k] * s[o]) + b[o]

  A weight enters as its integer value read as a real number. The two arrangements agree when the activations
  and the scales are real numbers (the bias is added last on both sides and may be anything).
-/
import Idealize.ShloMosaic.Lib.ValueIdx
import Idealize.ShloMosaic.PureOps.Ideal
import proofs.«172685_j59751585022726_2_alg».proof.Proof.ScaleLaw

noncomputable section

open scoped BigOperators

namespace Cert.Proof.LinearSpec

open Idealize.ShloMosaic Idealize.ShloMosaic.ValueIdx

/-- The output entry with the row's scale applied to the finished dot product. -/
def scaledAfter (x : (⟨3, ![8, 64, 4096]⟩ : Shape).Idx → EReal) (w : (⟨2, ![16384, 4096]⟩ : Shape).Idx → BitVec 32)
    (s b : (⟨1, ![16384]⟩ : Shape).Idx → EReal) (r : Fin 8) (t : Fin 64) (o : Fin 16384) : EReal :=
  (∑ k : Fin 4096, x (ix3 r t k) * (((w (ix2 o k)).toInt : ℝ) : EReal)) * s (ix1 o) + b (ix1 o)

/-- The output entry with the row's scale applied to every weight before the dot product. -/
def scaledBefore (x : (⟨3, ![8, 64, 4096]⟩ : Shape).Idx → EReal) (w : (⟨2, ![16384, 4096]⟩ : Shape).Idx → BitVec 32)
    (s b : (⟨1, ![16384]⟩ : Shape).Idx → EReal) (r : Fin 8) (t : Fin 64) (o : Fin 16384) : EReal :=
  (∑ k : Fin 4096, x (ix3 r t k) * ((((w (ix2 o k)).toInt : ℝ) : EReal) * s (ix1 o))) + b (ix1 o)

/-- With real activations and real scales the two arrangements are one number. -/
theorem scaledAfter_eq_scaledBefore (x : (⟨3, ![8, 64, 4096]⟩ : Shape).Idx → EReal)
    (w : (⟨2, ![16384, 4096]⟩ : Shape).Idx → BitVec 32) (s b : (⟨1, ![16384]⟩ : Shape).Idx → EReal)
    (hx : ∀ i, ∃ v : ℝ, x i = (v : EReal)) (hs : ∀ i, ∃ v : ℝ, s i = (v : EReal))
    (r : Fin 8) (t : Fin 64) (o : Fin 16384) :
    scaledAfter x w s b r t o = scaledBefore x w s b r t o := by
  unfold scaledAfter scaledBefore
  rw [Cert.Proof.ScaleLaw.sum_mul_scale (fun k : Fin 4096 => x (ix3 r t k)) (fun k => ((w (ix2 o k)).toInt : ℝ))
    (s (ix1 o)) (fun k => hx _) (hs _)]

/-- The whole result array, index by index, in the arrangement that scales after the contraction. -/
def linear (x : (⟨3, ![8, 64, 4096]⟩ : Shape).Idx → EReal) (w : (⟨2, ![16384, 4096]⟩ : Shape).Idx → BitVec 32)
    (s b : (⟨1, ![16384]⟩ : Shape).Idx → EReal) : (⟨3, ![8, 64, 16384]⟩ : Shape).Idx → EReal :=
  fun i => scaledAfter x w s b (i 0) (i 1) (i 2)

theorem linear_ix3 (x : (⟨3, ![8, 64, 4096]⟩ : Shape).Idx → EReal) (w : (⟨2, ![16384, 4096]⟩ : Shape).Idx → BitVec 32)
    (s b : (⟨1, ![16384]⟩ : Shape).Idx → EReal) (r : Fin 8) (t : Fin 64) (o : Fin 16384) :
    linear x w s b (ix3 r t o) = scaledAfter x w s b r t o := rfl

end Cert.Proof.LinearSpec

end
-- ==== Proof.KernelValue.lean ====
/-
  The kernel program's result as one function of its arguments.

  After the region the program splits the rows of the `[512, 16384]` result back into batch entry and position:
  entry `(r, t, o)` of the program's result is entry `(r * 64 + t, o)` of the region's. Row `r * 64 + t` of the
  region's activation operand is the argument's `(r, t, ·)`, its weight operand is the argument as launched, and
  column `o` of its scale and bias rows is the argument's entry `o`. So the program's result at `(r, t, o)` is
  `(∑ k, x[r, t, k] * w[o, k]) * s[o] + b[o]`: the layer with the scale applied after the contraction. This needs
  no hypothesis on the arguments.
-/
import proofs.«172685_j59751585022726_2_alg».proof.Proof.Gen.KernelIdeal.Frame
import proofs.«172685_j59751585022726_2_alg».proof.Proof.HostGlue
import proofs.«172685_j59751585022726_2_alg».proof.Proof.TileValue
import proofs.«172685_j59751585022726_2_alg».proof.Proof.LinearSpec
import proofs.«172685_j59751585022726_2_alg».proof.Proof.LibMergeLeadingAxes
import Idealize.ShloMosaic.Lib.StableHlo.Run

noncomputable section

open scoped BigOperators

namespace Cert.KernelIdeal.KernelValue

open Cert.KernelIdeal Cert.KernelIdeal.Gen Cert.KernelIdeal.HostGlue Cert.KernelIdeal.TileValue Cert.Proof.LinearSpec
open Idealize.ShloMosaic Idealize.ShloMosaic.TcCoe Idealize.SL.Sem Idealize.ShloMosaic.StableHlo
open Idealize.ShloMosaic.ValueIdx Idealize.ShloMosaic.MergeLeadingAxes

variable (m : (ℓ : Loc nD τ sig) → Buf (Elt Ideal) ℓ) (ρ : Dev nD → PrngReg)

/-- The program's result buffer after the line that follows the region: the region's result array, its rows split
    into batch entry and position. -/
theorem tail_eq (c : Dev nD) :
    Pipeline.afterTail₀ cfgs (dats m) 0 (V0 m) [hostOps1] c main_v5
      = shapeCast S8x64x16384 (product (V m c main_v1) (V m c main_arg1) (V m c main_v2) (V m c main_v3))
          shapeCasts_S512x16384_S8x64x16384 := by
  unfold Pipeline.afterTail₀
  show StableHlo.after hostOps1 _ (Proc.devRef .tc main_v5) = _
  after_results
  exact congrArg (fun A => shapeCast S8x64x16384 A shapeCasts_S512x16384_S8x64x16384)
    ((Pipeline.withArrays_arr spec0 launch0.win.arr_inj c _ _ 4).trans (final m c))

/-- An entry of the region's result, over operands that read the arguments as the flattening and the one-row layouts
    say, is the layer's entry with the scale applied after the contraction. -/
theorem entry_eq (a : S512x4096.Idx → EReal) (w w' : S16384x4096.Idx → BitVec 32) (s b : S1x16384.Idx → EReal)
    (x : S8x64x4096.Idx → EReal) (s' b' : S16384.Idx → EReal) (r : Fin 8) (t : Fin 64) (o : Fin 16384)
    (ha : ∀ k : Fin 4096, a (ix2 (row r t) k) = x (ix3 r t k)) (hw : w = w')
    (hs : s (ix2 (0 : Fin 1) o) = s' (ix1 o)) (hb : b (ix2 (0 : Fin 1) o) = b' (ix1 o)) :
    entry a w s b (row r t) o = scaledAfter x w' s' b' r t o := by
  subst hw
  unfold entry scaledAfter
  rw [hs, hb]
  simp only [ha]

/-- The program's result is `linear` of the four arguments. -/
theorem result_eq (c : Dev nD) :
    Pipeline.afterTail₀ cfgs (dats m) 0 (V0 m) [hostOps1] c main_v5
      = linear (m ((c : Thread nD τ).loc main_arg0)) (m ((c : Thread nD τ).loc main_arg1))
          (m ((c : Thread nD τ).loc main_arg2)) (m ((c : Thread nD τ).loc main_arg3)) := by
  rw [tail_eq]
  funext i
  obtain ⟨r, t, o, rfl⟩ : ∃ (r : Fin 8) (t : Fin 64) (o : Fin 16384), i = ix3 r t o := ⟨i 0, i 1, i 2, eq_ix3 i⟩
  rw [shapeCast_nc_abc_apply _ shapeCasts_S512x16384_S8x64x16384 r t o (row r t) rfl, product_ix2, linear_ix3]
  exact entry_eq _ _ _ _ _ _ _ _ r t o (fun k => activations_apply m c r t k) (V_main_arg1 m c)
    (scales_apply m c o) (biases_apply m c o)

/-- Every weakly fair execution of the kernel program ends with its result at `linear` of the arguments and the
    arguments unchanged. -/
theorem run : θ_run defs (onTc (τ := τ) (main (F := Ideal))) ⟨m, fun _ => 0, ρ⟩ fun r => ∀ c : Dev nD,
      r.2.mem ((c.tc : Thread nD τ).loc main_v5)
        = linear (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefValue.lean ====
/-
  The reference, index by index.

  The reference converts the integer weights to floats, multiplies row `o` of them by `s[o]` (the scale vector
  made a column and broadcast along the row), contracts the activations' last axis with the scaled weights'
  last axis, and adds the bias broadcast over batch and position. Read at `(r, t, o)` that is
  `∑ k, x[r, t, k] * (w[o, k] * s[o]) + b[o]`: the arrangement that scales before the contraction.
-/
import proofs.«172685_j59751585022726_2_alg».proof.Proof.Gen.ReferenceIdeal.Read
import proofs.«172685_j59751585022726_2_alg».proof.Proof.LinearSpec

noncomputable section

open scoped BigOperators

namespace Cert.ReferenceIdeal.RefValue

open Cert.ReferenceIdeal Cert.ReferenceIdeal.Read Idealize.ShloMosaic Idealize.ShloMosaic.ValueIdx
open Cert.Proof.LinearSpec

/-! ## The composed index maps of the reference's layout operations, at coordinates -/

theorem lhs_at (r : Fin 8) (t : Fin 64) (o : Fin 16384) (k : Fin 4096) : lidx_main_v4 (ix3 r t o) k = ix3 r t k :=
  funext fun a => Fin.ext (by match a with | ⟨0, _⟩ => rfl | ⟨1, _⟩ => rfl | ⟨2, _⟩ => rfl)
theorem rhs_at (r : Fin 8) (t : Fin 64) (o : Fin 16384) (k : Fin 4096) : ridx_main_v4 (ix3 r t o) k = ix2 o k :=
  funext fun a => Fin.ext (by match a with | ⟨0, _⟩ => rfl | ⟨1, _⟩ => rfl)
theorem scale_at (o : Fin 16384) (k : Fin 4096) : idx_main_v1 (idx_main_v2 (ix2 o k)) = ix1 o :=
  funext fun a => Fin.ext (by match a with | ⟨0, _⟩ => rfl)
theorem bias_at (r : Fin 8) (t : Fin 64) (o : Fin 16384) : idx_main_v5 (idx_main_v6 (ix3 r t o)) = ix1 o :=
  funext fun a => Fin.ext (by match a with | ⟨0, _⟩ => rfl)

/-- The reference's result at `(r, t, o)` is the entry scaled before the contraction. -/
theorem result_apply (x : (⟨S8x64x4096, .f32⟩ : BufTy).Contents (Elt Ideal)) (w : (⟨S16384x4096, .i32⟩ : BufTy).Contents (Elt Ideal))
    (s b : (⟨S16384, .f32⟩ : BufTy).Contents (Elt Ideal)) (r : Fin 8) (t : Fin 64) (o : Fin 16384) :
    val_main_v7 (F := Ideal) x w s b (ix3 r t o) = scaledBefore x w s b r t o := by
  rw [val_main_v7_apply, val_main_v4_apply, val_main_v6_apply, val_main_v5_apply, bias_at]
  simp only [val_main_v3_apply, val_main_v0_apply, val_main_v2_apply, val_main_v1_apply, lhs_at, rhs_at, scale_at]
  rfl

/-- With real activations and real scales the reference's result array is `linear` of the arguments. -/
theorem result_eq (x : (⟨S8x64x4096, .f32⟩ : BufTy).Contents (Elt Ideal)) (w : (⟨S16384x4096, .i32⟩ : BufTy).Contents (Elt Ideal))
    (s b : (⟨S16384, .f32⟩ : BufTy).Contents (Elt Ideal))
    (hx : ∀ i, ∃ v : ℝ, x i = (v : EReal)) (hs : ∀ i, ∃ v : ℝ, s i = (v : EReal)) :
    val_main_v7 (F := Ideal) x w s b = linear x w s b := by
  funext i
  obtain ⟨r, t, o, rfl⟩ : ∃ (r : Fin 8) (t : Fin 64) (o : Fin 16384), i = ix3 r t o := ⟨i 0, i 1, i 2, eq_ix3 i⟩
  rw [result_apply, linear_ix3, scaledAfter_eq_scaledBefore x w s b hx hs]

end Cert.ReferenceIdeal.RefValue

end
-- ==== Proof.FiniteInputs.lean ====
/-
  What the precondition says of the float arguments.

  The precondition compares the absolute value of every entry of the activations, of the scales and of the biases
  with +∞ and takes the conjunction of all the comparisons. At the ideal instance an entry is an extended real,
  its absolute value is `max a (-a)`, and `max a (-a) < ⊤` fails exactly at `a = ⊤` and `a = ⊥`: so where the
  precondition is all ones every entry of the three float arrays is the image of a real number.
-/
import proofs.«172685_j59751585022726_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

/-- The scalar shape has one index. -/
instance : Subsingleton S_.Idx := ⟨fun a b => funext fun d => d.elim0⟩

/-- An extended real whose absolute value compares below the +∞ literal is a real number. -/
theorem real_of_abs_lt_inf (a : EReal)
    (h : Ideal.cmp .olt (max a (-a)) (Ideal.ofBits .f32 0x7F800000#32) = 1#1) : ∃ v : ℝ, a = (v : EReal) := by
  have htop : Ideal.ofBits .f32 0x7F800000#32 = ⊤ := by simp [Ideal.ofBits, Ideal.ieee]
  rw [htop] at h
  unfold Ideal.cmp at h
  induction a using EReal.rec with
  | bot => simp at h
  | coe v => exact ⟨v, rfl⟩
  | top => simp at h

/-- Where the precondition holds, the activations, the scales and the biases are real entry by entry. -/
theorem real_of_pre (x : FVec Ideal S8x64x4096 .f32) (w : IVec S16384x4096 32) (s b : FVec Ideal S16384 .f32)
    (h : fn (F := Ideal) x w s b = fun _ => 1#1) :
    (∀ i, ∃ v : ℝ, x i = (v : EReal)) ∧ (∀ i, ∃ v : ℝ, s i = (v : EReal)) ∧ (∀ i, ∃ v : ℝ, b i = (v : EReal)) := by
  have h0 := congrFun h ix0
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt_inf (x i) (Host.reduce_andi_all _ _ _ _ ix0 h1 i)
  · exact real_of_abs_lt_inf (s i) (Host.reduce_andi_all _ _ _ _ ix0 h2 i)
  · exact real_of_abs_lt_inf (b i) (Host.reduce_andi_all _ _ _ _ ix0 h3 i)

end Cert.Pre_finite_inputs.Finite

end
-- ==== Proof.lean ====
/-
  A dequantized linear layer: `y[r, t, o] = (x[r, t, ·] · Wq[o, ·]) * scale[o] + bias[o]` with integer weights.

  The kernel flattens the activations to 512 rows, runs one grid point per tile of 512 output features — each point
  contracts all 512 activation rows with its 512 integer weight rows on the matrix unit and then multiplies the
  tile by the rows' scales and adds their biases — and splits the rows of the result back into batch entry and
  position. The reference scales every weight row first and contracts afterwards.

  At the ideal instance a float is an extended real, the narrowing of the activations to bf16 is the identity, and
  an integer weight converts to its own value, so the two programs compute, at `(r, t, o)`,

    kernel      (∑ k, x[r, t, k] * w[o, k]) * s[o] + b[o]        (KernelValue, over TileValue, BodyValue, HostGlue)
    reference    ∑ k, x[r, t, k] * (w[o, k] * s[o]) + b[o]        (RefValue).

  These agree by distributivity and associativity, which hold on the extended reals only away from the infinities
  (ScaleLaw): the precondition makes every activation and every scale a real number (FiniteInputs), the weights are
  integers, and then both sides are the image of one real number (LinearSpec). The bias is added last on both sides.
  The three frames are the generated frame certificates and the reference's generated run; the idealization rewrote
  no operation, so there is nothing to preserve.
-/
import proofs.«172685_j59751585022726_2_alg».proof.Defs
import proofs.«172685_j59751585022726_2_alg».proof.Proof.Gen.Kernel
import proofs.«172685_j59751585022726_2_alg».proof.Proof.Gen.Kernel.Skeleton
import proofs.«172685_j59751585022726_2_alg».proof.Proof.Gen.Kernel.Launch
import proofs.«172685_j59751585022726_2_alg».proof.Proof.Gen.Kernel.Points
import proofs.«172685_j59751585022726_2_alg».proof.Proof.Gen.Kernel.Frame
import proofs.«172685_j59751585022726_2_alg».proof.Proof.Gen.KernelIdeal
import proofs.«172685_j59751585022726_2_alg».proof.Proof.Gen.KernelIdeal.Skeleton
import proofs.«172685_j59751585022726_2_alg».proof.Proof.Gen.KernelIdeal.Launch
import proofs.«172685_j59751585022726_2_alg».proof.Proof.Gen.KernelIdeal.Points
import proofs.«172685_j59751585022726_2_alg».proof.Proof.Gen.KernelIdeal.Frame
import proofs.«172685_j59751585022726_2_alg».proof.Proof.Gen.ReferenceIdeal
import proofs.«172685_j59751585022726_2_alg».proof.Proof.Gen.Pre_finite_inputs
import proofs.«172685_j59751585022726_2_alg».proof.Proof.Gen.ReferenceIdeal.Run
import proofs.«172685_j59751585022726_2_alg».proof.Proof.Gen.ReferenceIdeal.Read
import proofs.«172685_j59751585022726_2_alg».proof.Proof.KernelValue
import proofs.«172685_j59751585022726_2_alg».proof.Proof.RefValue
import proofs.«172685_j59751585022726_2_alg».proof.Proof.FiniteInputs
import Idealize.ShloMosaic.Adequacy
import Idealize.ShloMosaic.Init

noncomputable section

namespace Cert.Proof

open Idealize.ShloMosaic Idealize.SL.Sem Idealize.ShloMosaic.TcCoe

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at `linear` of the arguments: the kernel always, the reference because the
    precondition makes the activations and the scales real, which is what lets the scale pass through the sum. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨?_, (h c).2⟩)
    (Cert.ReferenceIdeal.Value.run (F := Ideal) m' ρ')
  obtain ⟨hx, hs, -⟩ := Cert.Pre_finite_inputs.Finite.real_of_pre _ _ _ _ (hpre c)
  rw [(h c).1, Cert.ReferenceIdeal.Read.val_main_v7_eq, (hagree c).1, (hagree c).2.1, (hagree c).2.2.1, (hagree c).2.2.2]
  exact Cert.ReferenceIdeal.RefValue.result_eq _ _ _ _ hx hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
